-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S512 : Shape := ⟨1, ![512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S131072x128 .f32) (main_arg1 : FVec F S512x128 .f32) (main_arg2 : FVec F S512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x128 : Shape := ⟨2, ![131072, 128]⟩
abbrev S512x128 : Shape := ⟨2, ![512, 128]⟩
abbrev S512 : Shape := ⟨1, ![512]⟩
abbrev S128x512 : Shape := ⟨2, ![128, 512]⟩
abbrev S1x512 : Shape := ⟨2, ![1, 512]⟩
abbrev S131072x512 : Shape := ⟨2, ![131072, 512]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512, .f32⟩
  | .hbm, ⟨3, _⟩ => ⟨S128x512, .f32⟩
  | .hbm, ⟨4, _⟩ => ⟨S128x512, .bf16⟩
  | .hbm, ⟨5, _⟩ => ⟨S1x512, .f32⟩
  | .hbm, ⟨6, _⟩ => ⟨S131072x512, .f32⟩
  | .local _ .vmem, ⟨0, _⟩ => ⟨S2048x128, .f32⟩
  | .local _ .vmem, ⟨1, _⟩ => ⟨S2048x128, .f32⟩
  | .local _ .vmem, ⟨2, _⟩ => ⟨S128x512, .bf16⟩
  | .local _ .vmem, ⟨3, _⟩ => ⟨S128x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x128_S128x512_1_0 : S512x128.Transposes [1, 0] S128x512
  bitsLt_bf16_f32 : FTy.bits .bf16 < FTy.bits .f32
  bcast_S512_S1x512_1 : S512.BroadcastsInDim S1x512 (![1] : Fin 1 → Fin S1x512.rank)
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  reduces_S128x512_S512 : S128x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S131072x512.size a
  hwx0_4 : ∀ i : grid0.Coords, EltTy.bits .f32 = 32 ∨ (Rect.block (s := S131072x512) S2048x512.size (cc0_transform_4 i) (hinb0_4 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S512 : Shape := ⟨1, ![512]⟩
abbrev S_ : Shape := ⟨0, ![]⟩
abbrev S131072 : Shape := ⟨1, ![131072]⟩
abbrev S131072x1 : Shape := ⟨2, ![131072, 1]⟩
abbrev S131072x512 : Shape := ⟨2, ![131072, 512]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512, .f32⟩
  | .hbm, ⟨3, _⟩ => ⟨S131072x128, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S512x128, .f32⟩
  | .hbm, ⟨8, _⟩ => ⟨S_, .f32⟩
  | .hbm, ⟨9, _⟩ => ⟨S512, .f32⟩
  | .hbm, ⟨10, _⟩ => ⟨S131072x512, .f32⟩
  | .hbm, ⟨11, _⟩ => ⟨S1x512, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S131072x512, .f32⟩
  | .hbm, ⟨27, _⟩ => ⟨S1x512, .f32⟩
  | .hbm, ⟨28, _⟩ => ⟨S131072x512, .f32⟩
  | .hbm, ⟨29, _⟩ => ⟨S131072x512, .f32⟩
  | .hbm, ⟨30, _⟩ => ⟨S131072x512, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S512x128_S512_d1 : S512x128.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S_S512 : S_.BroadcastsInDim S512 (![] : Fin 0 → Fin S512.rank)
  dot_S131072x128_S512x128_S131072x512_1_1_0_0_n_n_wf : DotDims.WF S131072x128 S512x128 S131072x512 [1] [1] [0] [0] [] []

variable [Facts₀]

def dot_S131072x128_S512x128_S131072x512_1_1_0_0_n_n : DotDims S131072x128 S512x128 S131072x512 where
  lhsContracting := [1]
  rhsContracting := [1]
  lhsNonContracting := [0]
  rhsNonContracting := [0]
  lhsBatch := []
  rhsBatch := []
  wf := dot_S131072x128_S512x128_S131072x512_1_1_0_0_n_n_wf

class Facts : Prop extends Facts₀ where

variable [Facts]
-- ==== Proof.Rbf.lean ====
/-
  The Gaussian radial-basis layer as ONE function of its three argument arrays.

  For row `b` of the inputs `x` (131072 rows of 128 numbers), center `o` of `c` (512 centers of 128 numbers) and the
  center's log-width `s o`, the layer's value is

      exp ( -(max (‖x_b‖² + ‖c_o‖² - 2·⟨x_b, c_o⟩) 0) · exp (-2 · s o) ),

  the squared distance ‖x_b - c_o‖² spelt by the expansion of the square, clamped at zero, and scaled by the inverse
  squared width 1/σ² = exp (-2 log σ). Every operation is the extended reals' own, and the three constants 2, 0 and -2
  stay the float words they are printed as: the same word on both sides of an equation is never evaluated.

  `gauss` is the scalar core, a function of the three sums and the log-width; `rbfAt` the value at a row and a center;
  `rbf` the whole result array, index by index. The sums are written once, as `dot`, over an abstract pair of rows.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The layer's value from the two squared norms `xx = ‖x_b‖²`, `cc = ‖c_o‖²`, the inner product `xc = ⟨x_b, c_o⟩` and
    the log-width `s`: the clamped squared distance, negated, times the inverse squared width, exponentiated. -/
def gauss (xx cc xc s : EReal) : EReal :=
  Ideal.exp (-(max (xx + cc - Ideal.ofBits .f32 0x40000000#32 * xc) (Ideal.ofBits .f32 0x00000000#32))
    * Ideal.exp (Ideal.ofBits .f32 0xC0000000#32 * s))

/-- The same value with the negation spelt as a subtraction from the zero word: on the extended reals `0 - d = -d` for
    every `d`, the two infinities included. -/
theorem gauss_zero_sub (xx cc xc s : EReal) :
    Ideal.exp ((Ideal.ofBits .f32 0x00000000#32 - max (xx + cc - Ideal.ofBits .f32 0x40000000#32 * xc) (Ideal.ofBits .f32 0x00000000#32))
      * Ideal.exp (Ideal.ofBits .f32 0xC0000000#32 * s)) = gauss xx cc xc s := by
  unfold gauss
  rw [show Ideal.ofBits .f32 0x00000000#32 - max (xx + cc - Ideal.ofBits .f32 0x40000000#32 * xc) (Ideal.ofBits .f32 0x00000000#32)
        = -(max (xx + cc - Ideal.ofBits .f32 0x40000000#32 * xc) (Ideal.ofBits .f32 0x00000000#32)) by
      rw [Ideal.ofBits_zero_f32, zero_sub]]

/-- A sum started at the zero word is the sum: the word denotes the number zero. -/
theorem zero_word_add (a : EReal) : Ideal.ofBits .f32 0x00000000#32 + a = a := by
  rw [Ideal.ofBits_zero_f32, zero_add]

/-- The inner product of two rows of 128 numbers. -/
def dot (u v : Fin 128 → EReal) : EReal := ∑ k : Fin 128, u k * v k

/-- The layer at row `b` and center `o`. -/
def rbfAt (x : (⟨2, ![131072, 128]⟩ : Shape).Idx → EReal) (c : (⟨2, ![512, 128]⟩ : Shape).Idx → EReal)
    (s : (⟨1, ![512]⟩ : Shape).Idx → EReal) (b : Fin 131072) (o : Fin 512) : EReal :=
  gauss (dot (fun k => x (ix2 b k)) (fun k => x (ix2 b k))) (dot (fun k => c (ix2 o k)) (fun k => c (ix2 o k)))
    (dot (fun k => x (ix2 b k)) (fun k => c (ix2 o k))) (s (ix1 o))

/-- The whole result: entry `(b, o)` is the layer at row `b` and center `o`. -/
def rbf (x : (⟨2, ![131072, 128]⟩ : Shape).Idx → EReal) (c : (⟨2, ![512, 128]⟩ : Shape).Idx → EReal)
    (s : (⟨1, ![512]⟩ : Shape).Idx → EReal) : (⟨2, ![131072, 512]⟩ : Shape).Idx → EReal :=
  fun i => rbfAt x c s ⟨(i 0).val, idx2_lt0 i⟩ ⟨(i 1).val, idx2_lt1 i⟩

/-- The layer's value is determined by the three sums and the log-width: equal data, equal value. -/
theorem gauss_congr {xx cc xc s xx' cc' xc' s' : EReal} (h1 : xx = xx') (h2 : cc = cc') (h3 : xc = xc') (h4 : s = s') :
    gauss xx cc xc s = gauss xx' cc' xc' s' := by rw [h1, h2, h3, h4]

/-- Two inner products of rows that agree entry by entry are equal. -/
theorem dot_congr {u v u' v' : Fin 128 → EReal} (hu : ∀ k, u k = u' k) (hv : ∀ k, v k = v' k) : dot u v = dot u' v' :=
  Finset.sum_congr rfl fun k _ => by rw [hu k, hv k]

end Cert.Rbf

end
-- ==== Proof.RefRbf.lean ====
/-
  The reference program computes the layer `Cert.Rbf.rbf`.

  Read one operation at a time, the reference's result at `(b, o)` is the exponential of the negated, clamped
  `(0 + Σₖ x(b,k)² + (0 + Σₖ c(o,k)²)) - 2 · Σₖ x(b,k) c(o,k)` times `exp (-2 · s o)`: the two squared norms are sums
  started at the zero word, which adds nothing, and each broadcast reads the coordinate it repeats. That is `rbfAt`.
-/
import proofs.«175517_j17626545783610_2_alg».proof.Proof.Gen.ReferenceIdeal.Read
import proofs.«175517_j17626545783610_2_alg».proof.Proof.Rbf

noncomputable section

namespace Cert.ReferenceIdeal.RefRbf

open Cert.ReferenceIdeal Cert.ReferenceIdeal.Read Idealize.ShloMosaic Idealize.ShloMosaic.ValueIdx

/-- The row of `x` that the squared-norm stage reads for the result's entry `i` is row `i 0`. -/
theorem idx_row (i : S131072x512.Idx) (k : Fin 128) :
    idx_main_v1 (idx_main_v2 (idx_main_v7 i)) k = ix2 ⟨(i 0).val, idx2_lt0 i⟩ k :=
  funext fun a => Fin.ext (by match a with | ⟨0, _⟩ => rfl | ⟨1, _⟩ => rfl)

/-- The row of `c` that the centers' squared-norm stage reads for the result's entry `i` is row `i 1`. -/
theorem idx_center (i : S131072x512.Idx) (k : Fin 128) :
    idx_main_v4 (idx_main_v6 (idx_main_v8 i)) k = ix2 ⟨(i 1).val, idx2_lt1 i⟩ k :=
  funext fun a => Fin.ext (by match a with | ⟨0, _⟩ => rfl | ⟨1, _⟩ => rfl)

/-- The matrix product's left factor for entry `i` is row `i 0` of `x`, -/
theorem idx_lhs (i : S131072x512.Idx) (k : Fin 128) : lidx_main_v5 i k = ix2 ⟨(i 0).val, idx2_lt0 i⟩ k :=
  funext fun a => Fin.ext (by match a with | ⟨0, _⟩ => rfl | ⟨1, _⟩ => rfl)

/-- and its right factor row `i 1` of `c`. -/
theorem idx_rhs (i : S131072x512.Idx) (k : Fin 128) : ridx_main_v5 i k = ix2 ⟨(i 1).val, idx2_lt1 i⟩ k :=
  funext fun a => Fin.ext (by match a with | ⟨0, _⟩ => rfl | ⟨1, _⟩ => rfl)

/-- The log-width that entry `i` reads is that of center `i 1`. -/
theorem idx_width (i : S131072x512.Idx) : idx_main_v19 (idx_main_v20 i) = ix1 ⟨(i 1).val, idx2_lt1 i⟩ :=
  funext fun a => Fin.ext (by match a with | ⟨0, _⟩ => rfl)

/-- The reference's last stage is the layer, index by index. -/
theorem result_eq (x : FVec Ideal S131072x128 .f32) (c : FVec Ideal S512x128 .f32) (s : FVec Ideal S512 .f32) :
    val_main_v22 (F := Ideal) x c s = Cert.Rbf.rbf x c s := by
  funext i
  rw [val_main_v22_apply, val_main_v21_apply, val_main_v18_apply, val_main_v14_apply, val_main_v12_apply,
    val_main_v9_apply, val_main_v7_apply, val_main_v2_apply, val_main_v1_apply, val_main_v8_apply, val_main_v6_apply,
    val_main_v4_apply, val_main_v11_apply, val_main_v10_apply, val_main_v5_apply, val_main_v13_apply,
    val_main_v20_apply, val_main_v19_apply, val_main_v17_apply, val_main_v16_apply, val_main_v15_apply]
  simp only [val_main_cst_apply, val_main_cst_0_apply, val_main_cst_1_apply, val_main_cst_2_apply, val_main_cst_3_apply,
    val_main_v0_apply, val_main_v3_apply, idx_row, idx_center, idx_lhs, idx_rhs, idx_width,
    Ideal.mulf_def, Ideal.addf_def, Ideal.subf_def, Ideal.maximumf_def, Ideal.hostNegf_def, Ideal.negf_def,
    Ideal.hostUnary_exp_def, Ideal.ofBits_def, Cert.Rbf.zero_word_add]
  rfl

end Cert.ReferenceIdeal.RefRbf

end
-- ==== Proof.LibColumn.lean ====
/-
  Two layout operations of a column vector, read at an index written by coordinates.

  A sum along the rows of an `[a, n]` array kept as a column (`keepdims`) is a vector of `a` numbers cast to `[a, 1]`
  and then repeated along the second axis to `[a, b]`. Read at `(p, c)`, the cast gives the vector's entry `p` (the
  row-major position of `(p, 0)` in `[a, 1]` is `p`), and the repeat gives the column's entry `(p, 0)`, whatever `c`.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What the kernel body stores, at an index of its `[2048, 512]` output block.

  The body loads a block `v` of 2048 input rows, the transposed centers twice (once as they are, `w`, once in the
  narrower float format, `w'`: at the ideal instance a change of format is the identity) and the row `l` of log-widths.
  Its stored value at `(p, q)` is the layer's scalar core `Cert.Rbf.gauss` of
    Σₖ v(p,k)²  — a sum along the lanes, kept as a column and repeated along the row —,
    Σₖ w(k,q)²  — a sum down the sublanes, kept as a row and repeated down the column —,
    Σₖ v(p,k)·w'(k,q)  — the matrix product into a zero accumulator —, and `l(0,q)`,
  with the negation of the clamped distance spelt `0 - d`.
-/
import proofs.«175517_j17626545783610_2_alg».proof.Proof.Gen.KernelIdeal.Skeleton
import proofs.«175517_j17626545783610_2_alg».proof.Proof.Rbf
import proofs.«175517_j17626545783610_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Idealize.ShloMosaic Idealize.ShloMosaic.ValueIdx Cert.Rbf

/-- The lane sum of the squares of a block's rows, kept as a column and repeated along the row: at `(p, q)` the
    squared norm of row `p`. -/
theorem rowsq_apply (v : FVec Ideal S2048x128 .f32) (p : Fin 2048) (q : Fin 512) :
    broadcastTo S2048x512 (shapeCast S2048x1 (multiReduction .add [1] S2048 (mulf v v) 0x00000000#32
      Gen.reduces_S2048x128_S2048 (.inl rfl) rfl) Gen.shapeCasts_S2048_S2048x1) Gen.broadcasts_S2048x1_S2048x512 (ix2 p q)
      = dot (fun k => v (ix2 p k)) (fun k => v (ix2 p k)) := by
  refine (Cert.LibColumn.broadcastTo_a1_ab_apply _ Gen.broadcasts_S2048x1_S2048x512 p q).trans ?_
  refine (Cert.LibColumn.shapeCast_a_a1_apply _ Gen.shapeCasts_S2048_S2048x1 p (0 : Fin 1)).trans ?_
  refine (Ideal.multiReduction_add_single (mulf v v) 0x00000000#32 Gen.reduces_S2048x128_S2048 (.inl rfl) rfl (ix1 p)).trans ?_
  refine Finset.sum_congr rfl fun k _ => ?_
  have e : Gen.reduces_S2048x128_S2048.lift (ix1 p) k = ix2 p k :=
    funext fun a => Fin.ext (by match a with | ⟨0, _⟩ => rfl | ⟨1, _⟩ => rfl)
  show v (Gen.reduces_S2048x128_S2048.lift (ix1 p) k) * v (Gen.reduces_S2048x128_S2048.lift (ix1 p) k) = _
  rw [e]; rfl

/-- The sublane sum of the squares of the transposed centers, kept as a row and repeated down the column: at `(p, q)`
    the squared norm of column `q`. -/
theorem colsq_apply (w : FVec Ideal S128x512 .f32) (p : Fin 2048) (q : Fin 512) :
    broadcastTo S2048x512 (shapeCast S1x512 (multiReduction .add [0] S512
      (mulf (shapeCast S128x512 w Gen.shapeCasts_S128x512_S128x512) (shapeCast S128x512 w Gen.shapeCasts_S128x512_S128x512))
      0x00000000#32 Gen.reduces_S128x512_S512 (.inl rfl) rfl) Gen.shapeCasts_S512_S1x512) Gen.broadcasts_S1x512_S2048x512 (ix2 p q)
      = dot (fun k => w (ix2 k q)) (fun k => w (ix2 k q)) := by
  rw [shapeCast_self w Gen.shapeCasts_S128x512_S128x512]
  refine (broadcastTo_1b_ab_apply _ Gen.broadcasts_S1x512_S2048x512 p q).trans ?_
  refine (shapeCast_a_1a_apply _ Gen.shapeCasts_S512_S1x512 (0 : Fin 1) q).trans ?_
  refine (Ideal.multiReduction_add_single (mulf w w) 0x00000000#32 Gen.reduces_S128x512_S512 (.inl rfl) rfl (ix1 q)).trans ?_
  refine Finset.sum_congr rfl fun k _ => ?_
  have e : Gen.reduces_S128x512_S512.lift (ix1 q) k = ix2 k q :=
    funext fun a => Fin.ext (by match a with | ⟨0, _⟩ => rfl | ⟨1, _⟩ => rfl)
  show w (Gen.reduces_S128x512_S512.lift (ix1 q) k) * w (Gen.reduces_S128x512_S512.lift (ix1 q) k) = _
  rw [e]; rfl

/-- The inverse squared width, repeated down the column: at `(p, q)` the exponential of `-2` times log-width `q`. -/
theorem width_apply (l : FVec Ideal S1x512 .f32) (p : Fin 2048) (q : Fin 512) :
    broadcastTo S2048x512 (exp (mulf (broadcast S1x512 (Scalar.ofBits (F := Ideal) .f32 0xC0000000#32))
      (shapeCast S1x512 l Gen.shapeCasts_S1x512_S1x512))) Gen.broadcasts_S1x512_S2048x512 (ix2 p q)
      = Ideal.exp (Ideal.ofBits .f32 0xC0000000#32 * l (ix2 (0 : Fin 1) q)) := by
  rw [shapeCast_self l Gen.shapeCasts_S1x512_S1x512]
  exact broadcastTo_1b_ab_apply _ Gen.broadcasts_S1x512_S2048x512 p q

/-! ## The matrix product

  The product contracts the rows' axis 1 with the transposed centers' axis 0. The index it reads of the left factor
  for the result's entry `j` and contraction coordinate `k` is `(j 0, k)`, of the right factor `(k, j 1)`. -/

theorem lhs_row (j : S2048x512.Idx) (k : dot_S2048x128_S128x512_S2048x512_1_0_0_1_n_n.contr.Idx) : (dot_S2048x128_S128x512_S2048x512_1_0_0_1_n_n.lhsIdx j k 0).val = (j 0).val := by
  unfold DotDims.lhsIdx
  rw [dif_neg (show ¬(0 : Fin S2048x128.rank) ∈ dot_S2048x128_S128x512_S2048x512_1_0_0_1_n_n.lhsBatch by decide),
    dif_pos (show (0 : Fin S2048x128.rank) ∈ dot_S2048x128_S128x512_S2048x512_1_0_0_1_n_n.lhsNonContracting by decide)]
  rfl

theorem lhs_contr (j : S2048x512.Idx) (k : dot_S2048x128_S128x512_S2048x512_1_0_0_1_n_n.contr.Idx) : (dot_S2048x128_S128x512_S2048x512_1_0_0_1_n_n.lhsIdx j k 1).val = (k ⟨0, by decide⟩).val :=
  dot_S2048x128_S128x512_S2048x512_1_0_0_1_n_n.lhsIdx_val_of_single rfl j k

theorem rhs_contr (j : S2048x512.Idx) (k : dot_S2048x128_S128x512_S2048x512_1_0_0_1_n_n.contr.Idx) : (dot_S2048x128_S128x512_S2048x512_1_0_0_1_n_n.rhsIdx j k 0).val = (k ⟨0, by decide⟩).val :=
  dot_S2048x128_S128x512_S2048x512_1_0_0_1_n_n.rhsIdx_val_of_single rfl j k

theorem rhs_col (j : S2048x512.Idx) (k : dot_S2048x128_S128x512_S2048x512_1_0_0_1_n_n.contr.Idx) : (dot_S2048x128_S128x512_S2048x512_1_0_0_1_n_n.rhsIdx j k 1).val = (j 1).val := by
  unfold DotDims.rhsIdx
  rw [dif_neg (show ¬(1 : Fin S128x512.rank) ∈ dot_S2048x128_S128x512_S2048x512_1_0_0_1_n_n.rhsBatch by decide),
    dif_pos (show (1 : Fin S128x512.rank) ∈ dot_S2048x128_S128x512_S2048x512_1_0_0_1_n_n.rhsNonContracting by decide)]
  rfl

/-- The matrix product of the block's rows (narrowed to the shorter format: the identity here) with the transposed
    centers, into a zero accumulator: at `(p, q)` the inner product of row `p` with column `q`. -/
theorem cross_apply (v : FVec Ideal S2048x128 .f32) (w' : FVec Ideal S128x512 .bf16) (p : Fin 2048) (q : Fin 512) :
    matmul dot_S2048x128_S128x512_S2048x512_1_0_0_1_n_n none (truncf .bf16 v Gen.bitsLt_bf16_f32) (shapeCast S128x512 w' Gen.shapeCasts_S128x512_S128x512)
      (constant S2048x512 .f32 0x00000000#32) (ix2 p q)
      = dot (fun k => v (ix2 p k)) (fun k => w' (ix2 k q)) := by
  rw [shapeCast_self w' Gen.shapeCasts_S128x512_S128x512]
  refine (Ideal.matmul_constant_zero_apply dot_S2048x128_S128x512_S2048x512_1_0_0_1_n_n none (truncf .bf16 v Gen.bitsLt_bf16_f32) w' (ix2 p q)).trans ?_
  rw [← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p q) ((contrEquiv1 dot_S2048x128_S128x512_S2048x512_1_0_0_1_n_n 128 rfl rfl).symm k) = ix2 p k := funext fun a => Fin.ext (by
    match a with
    | ⟨0, _⟩ => exact lhs_row _ _
    | ⟨1, _⟩ => exact (lhs_contr _ _).trans hk)
  have er : dot_S2048x128_S128x512_S2048x512_1_0_0_1_n_n.rhsIdx (ix2 p q) ((contrEquiv1 dot_S2048x128_S128x512_S2048x512_1_0_0_1_n_n 128 rfl rfl).symm k) = ix2 k q := funext fun a => Fin.ext (by
    match a with
    | ⟨0, _⟩ => exact (rhs_contr _ _).trans hk
    | ⟨1, _⟩ => exact rhs_col _ _)
  rw [el, er]; rfl

/-! ## The stored value -/

/-- THE BODY'S STORED VALUE at `(p, q)`: the layer's scalar core of the block's row `p`, the transposed centers' column
    `q` (read of `w` for the squared norm, of `w'` for the product) and the log-width `l (0, q)`. -/
theorem pay_apply (v : Vec Ideal S2048x128 .f32) (w : Vec Ideal S128x512 .f32) (l : Vec Ideal S1x512 .f32)
    (w' : Vec Ideal S128x512 .bf16) (p : Fin 2048) (q : Fin 512) :
    Gen.k0_pay1 v w l w' (ix2 p q)
      = gauss (dot (fun k => v (ix2 p k)) (fun k => v (ix2 p k))) (dot (fun k => w (ix2 k q)) (fun k => w (ix2 k q)))
          (dot (fun k => v (ix2 p k)) (fun k => w' (ix2 k q))) (l (ix2 (0 : Fin 1) q)) := by
  refine Eq.trans ?_ (gauss_zero_sub _ _ _ _)
  rw [← rowsq_apply v p q, ← colsq_apply w p q, ← cross_apply v w' p q, ← width_apply l p q]
  rfl

end Cert.KernelIdeal.Body

end
-- ==== Proof.Entry.lean ====
/-
  What the kernel's region finds in the three arrays the host operations write before it.

  Before the region the program transposes the centers `[512, 128]` to `[128, 512]`, narrows that copy to the shorter
  float format (the identity at the ideal instance), and lays the 512 log-widths out as one row `[1, 512]`. So at
  `(k, q)` both transposed copies hold the centers' entry `(q, k)`, and the row holds at `(0, q)` the log-width `q`.
-/
import proofs.«175517_j17626545783610_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The transposed centers, as the region finds them: entry `(k, q)` is the centers' entry `(q, k)`. -/
theorem centersT_apply (c : Dev nD) (k : Fin 128) (q : Fin 512) :
    (V m c main_v0 : S128x512.Idx → EReal) (ix2 k q) = (m ((c : Thread nD τ).loc main_arg1) : S512x128.Idx → EReal) (ix2 q k) := by
  have e : (V m c main_v0 : S128x512.Idx → EReal)
      = transpose S128x512 [1, 0] (m ((c : Thread nD τ).loc main_arg1)) transposes_S512x128_S128x512_1_0 := by
    dsimp only [Gen.V, Gen.hostOps0]; after_results
  rw [e]
  exact transpose_ix2_apply _ _ k q

/-- The narrowed copy of the transposed centers holds the same numbers. -/
theorem centersT'_apply (c : Dev nD) (k : Fin 128) (q : Fin 512) :
    (V m c main_v1 : S128x512.Idx → EReal) (ix2 k q) = (m ((c : Thread nD τ).loc main_arg1) : S512x128.Idx → EReal) (ix2 q k) := by
  have e : @Eq (S128x512.Idx → EReal) (V m c main_v1)
      (truncf (F := Ideal) (φ := .f32) .bf16 (transpose S128x512 [1, 0]
        (m ((c : Thread nD τ).loc main_arg1) : S512x128.Idx → EReal) transposes_S512x128_S128x512_1_0) bitsLt_bf16_f32) := by
    dsimp only [Gen.V, Gen.hostOps0]; after_results
  rw [e]
  exact transpose_ix2_apply _ _ k q

/-- The log-widths laid out as a row: entry `(0, q)` is log-width `q`. -/
theorem widths_apply (c : Dev nD) (q : Fin 512) :
    (V m c main_v2 : S1x512.Idx → EReal) (ix2 (0 : Fin 1) q) = (m ((c : Thread nD τ).loc main_arg2) : S512.Idx → EReal) (ix1 q) := by
  have e : (V m c main_v2 : S1x512.Idx → EReal)
      = broadcastInDim S1x512 ![1] bcast_S512_S1x512_1 (m ((c : Thread nD τ).loc main_arg2)) := by
    dsimp only [Gen.V, Gen.hostOps0]; after_results
  rw [e]
  exact broadcastInDim_apply _ bcast_S512_S1x512_1 _ (ix2 (0 : Fin 1) q) (ix1 q) (fun a => match a with
    | ⟨0, _⟩ => by show q.val = if (512 : Nat) = 1 then 0 else q.val; rw [if_neg (by decide)])

end Cert.KernelIdeal.Entry

end
-- ==== Proof.Blocks.lean ====
/-
  From the kernel's 64 grid points to its whole result array.

  Point `t` works on rows `2048·t … 2048·t + 2047` of the inputs and writes the `[2048, 512]` block of the result at
  block index `(t, 0)`; the three parameter arrays are fetched whole (block index `(0, 0)`). Entry `(p, q)` of what point
  `t` writes is the layer at row `2048·t + p` and center `q`, that is, entry `(2048·t + p, q)` of `Cert.Rbf.rbf`: the block
  is a block of that ONE function. The 64 blocks tile the `[131072, 512]` array (row `r` lies in block `r / 2048`), so
  after the run the array is `rbf` of the three argument arrays.
-/
import proofs.«175517_j17626545783610_2_alg».proof.Proof.Gen.KernelIdeal.Value
import proofs.«175517_j17626545783610_2_alg».proof.Proof.Payload
import proofs.«175517_j17626545783610_2_alg».proof.Proof.Entry
import proofs.«175517_j17626545783610_2_alg».proof.Proof.Rbf

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg)

/-- The zero offsets of a whole-block load or store, spelt as a function. -/
theorem zero_offsets : (![0, 0] : Fin 2 → Nat) = fun _ => 0 := funext fun a => by fin_cases a <;> rfl

/-- The printed index maps, decided over the 64 points: the input rows' window and the output window sit at block
    `(t, 0)`, the three parameter windows at block `(0, 0)`. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the layer of the three argument arrays. -/
theorem flushed_eq (c : Dev nD) (t : Fin cfg0.N) :
    (dats m 0 c).flushed 4 t = ((cfg0.win 4).blk t).view.read (Elt Ideal) (rbf (m ((c : Thread nD τ).loc main_arg0)) (m ((c : Thread nD τ).loc main_arg1)) (m ((c : Thread nD τ).loc main_arg2))) := by
  rw [Value.flushed4]
  unfold out0_4
  rw [View.canon_unit_zero zero_offsets]
  simp only [View.ld_unit_zero (S := S2048x128) zero_offsets, View.ld_unit_zero (S := S128x512) zero_offsets,
    View.ld_unit_zero (S := S1x512) zero_offsets]
  obtain ⟨e00, e01, e10, e11, e20, e21, e30, e31, e40, e41⟩ := index_maps t
  funext j
  obtain ⟨p, q, rfl⟩ : ∃ (p : Fin 2048) (q : Fin 512), j = ix2 p q := ⟨j 0, j 1, eq_ix2 j⟩
  show Gen.k0_pay1 (iblk m c 0 t) (iblk m c 2 t) (iblk m c 3 t) (iblk m c 1 t) (ix2 p q)
    = rbf (m ((c : Thread nD τ).loc main_arg0)) (m ((c : Thread nD τ).loc main_arg1)) (m ((c : Thread nD τ).loc main_arg2)) (((cfg0.win 4).blk t).view.emb (ix2 p q))
  refine (Body.pay_apply (iblk m c 0 t) (iblk m c 2 t) (iblk m c 3 t) (iblk m c 1 t) p q).trans ?_
  -- the row of the inputs and the center that the result's entry reads
  have hrow : ∀ k : Fin 128, iblk m c 0 t (ix2 p k)
      = (m ((c : Thread nD τ).loc main_arg0)) (ix2 ⟨((((cfg0.win 4).blk t).view.emb (ix2 p q)) 0).val, idx2_lt0 _⟩ k) := fun k => by
    show V m c main_arg0 (((cfg0.win 0).blk t).view.emb (ix2 p k)) = _
    rw [V_main_arg0]
    refine congrArg _ (funext fun a => Fin.ext ?_)
    match a with
    | ⟨0, _⟩ => show win0_0.index t (0 : Fin 2) * 2048 + 1 * p.val = win0_4.index t (0 : Fin 2) * 2048 + 1 * p.val; omega
    | ⟨1, _⟩ => show win0_0.index t (1 : Fin 2) * 128 + 1 * k.val = k.val; omega
  have hcen : ∀ k : Fin 128, iblk m c 2 t (ix2 k q)
      = (m ((c : Thread nD τ).loc main_arg1)) (ix2 ⟨((((cfg0.win 4).blk t).view.emb (ix2 p q)) 1).val, idx2_lt1 _⟩ k) := fun k => by
    show V m c main_v0 (((cfg0.win 2).blk t).view.emb (ix2 k q)) = _
    have ei : ((cfg0.win 2).blk t).view.emb (ix2 k q) = ix2 k q := funext fun a => Fin.ext (by
      match a with
      | ⟨0, _⟩ => show win0_2.index t (0 : Fin 2) * 128 + 1 * k.val = k.val; omega
      | ⟨1, _⟩ => show win0_2.index t (1 : Fin 2) * 512 + 1 * q.val = q.val; omega)
    rw [ei, Entry.centersT_apply m c k q]
    refine congrArg _ (funext fun a => Fin.ext ?_)
    match a with
    | ⟨0, _⟩ => show q.val = win0_4.index t (1 : Fin 2) * 512 + 1 * q.val; omega
    | ⟨1, _⟩ => rfl
  have hcen' : ∀ k : Fin 128, iblk m c 1 t (ix2 k q)
      = (m ((c : Thread nD τ).loc main_arg1)) (ix2 ⟨((((cfg0.win 4).blk t).view.emb (ix2 p q)) 1).val, idx2_lt1 _⟩ k) := fun k => by
    show V m c main_v1 (((cfg0.win 1).blk t).view.emb (ix2 k q)) = _
    have ei : ((cfg0.win 1).blk t).view.emb (ix2 k q) = ix2 k q := funext fun a => Fin.ext (by
      match a with
      | ⟨0, _⟩ => show win0_1.index t (0 : Fin 2) * 128 + 1 * k.val = k.val; omega
      | ⟨1, _⟩ => show win0_1.index t (1 : Fin 2) * 512 + 1 * q.val = q.val; omega)
    rw [ei, Entry.centersT'_apply m c k q]
    refine congrArg _ (funext fun a => Fin.ext ?_)
    match a with
    | ⟨0, _⟩ => show q.val = win0_4.index t (1 : Fin 2) * 512 + 1 * q.val; omega
    | ⟨1, _⟩ => rfl
  have hwid : iblk m c 3 t (ix2 (0 : Fin 1) q)
      = (m ((c : Thread nD τ).loc main_arg2)) (ix1 ⟨((((cfg0.win 4).blk t).view.emb (ix2 p q)) 1).val, idx2_lt1 _⟩) := by
    show V m c main_v2 (((cfg0.win 3).blk t).view.emb (ix2 (0 : Fin 1) q)) = _
    have ei : ((cfg0.win 3).blk t).view.emb (ix2 (0 : Fin 1) q) = ix2 (0 : Fin 1) q := funext fun a => Fin.ext (by
      match a with
      | ⟨0, _⟩ => show win0_3.index t (0 : Fin 2) * 1 + 1 * 0 = 0; omega
      | ⟨1, _⟩ => show win0_3.index t (1 : Fin 2) * 512 + 1 * q.val = q.val; omega)
    rw [ei, Entry.widths_apply m c q]
    refine congrArg _ (funext fun a => Fin.ext ?_)
    match a with
    | ⟨0, _⟩ => show q.val = win0_4.index t (1 : Fin 2) * 512 + 1 * q.val; omega
  exact gauss_congr (dot_congr hrow hrow) (dot_congr hcen hcen) (dot_congr hrow hcen') hwid

/-- An index of the result array is in point `t`'s block iff each coordinate is in the block's range on its axis. -/
theorem mem_blk (t : Fin cfg0.N) (i : S131072x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v3).slice (win0_4.rect t)).set ↔ _
  rw [View.set_slice_whole, Rect.mem_set_unit]
  exact Iff.rfl

/-- THE BLOCKS TILE THE ARRAY: row `r` lies in the block of point `r / 2048`. -/
theorem cover (i : S131072x512.Idx) :
    ∃ t : Fin cfg0.N, (cfg0.win 4).flush t = true ∧ i ∈ ((cfg0.win 4).blk t).view.set := by
  have hi0 : (i 0).val < 131072 := (i 0).isLt
  have hi1 : (i 1).val < 512 := (i 1).isLt
  have hN : cfg0.N = 64 := N_0
  have ht : (i 0).val / 2048 < cfg0.N := by rw [hN]; omega
  obtain ⟨-, -, -, -, -, -, -, -, e40, e41⟩ := index_maps ⟨(i 0).val / 2048, ht⟩
  refine ⟨⟨(i 0).val / 2048, ht⟩, flush0_4 _, ?_⟩
  rw [mem_blk]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [e40]; show (i 0).val / 2048 * 2048 ≤ (i 0).val ∧ (i 0).val < (i 0).val / 2048 * 2048 + 2048; omega
  | ⟨1, _⟩ =>
    show win0_4.index ⟨(i 0).val / 2048, ht⟩ (1 : Fin 2) * 512 ≤ (i 1).val
      ∧ (i 1).val < win0_4.index ⟨(i 0).val / 2048, ht⟩ (1 : Fin 2) * 512 + 512
    rw [e41]; omega

/-- THE RESULT ARRAY after the run is the layer of the three argument arrays. -/
theorem final (c : Dev nD) : (dats m 0 c).arrAt 4 cfg0.N = rbf (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run: every weakly fair execution terminates with the result array at the layer of the argument
    arrays, the arguments unchanged. -/
theorem run : θ_run defs (onTc (τ := τ) (main (F := Ideal))) ⟨m, fun _ => 0, ρ⟩ fun r => ∀ c : Dev nD,
      r.2.mem ((c : Thread nD τ).loc main_v3) = rbf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  A Gaussian radial-basis layer, computed by a tiled kernel and by a plain array program: the two agree.

  For inputs `x : [131072, 128]`, centers `c : [512, 128]` and log-widths `s : [512]` both programs produce the array

      out (b, o) = exp ( -(max (‖x_b‖² + ‖c_o‖² - 2·⟨x_b, c_o⟩) 0) · exp (-2 · s o) )        (`Cert.Rbf.rbf`).

  The kernel walks 64 grid points, each taking 2048 rows of `x` against the centers transposed once beforehand; it sums
  the squares along lanes and down sublanes, multiplies on the matrix unit into a zero accumulator, and negates the
  clamped distance as `0 - d`. The reference sums both squared norms along the last axis from a zero start, contracts
  the last axes of `x` and `c`, and negates with the negation. Over the extended reals these are one function: a
  change of float format is the identity, a sum from zero is the sum, `0 - d = -d`, and the remaining differences are
  only in how an index is spelt. No step moves a factor across a sum or cancels, so the inputs' finiteness is not used.

  The frames are the generated ones (the reference's is its generated run with the result dropped); the idealized
  kernel is the kernel's own text read over the extended reals, with no operation rewritten, so the idealization claim
  is trivial; the algebraic claim sets the kernel's run
  (`Cert.KernelIdeal.Blocks.run`) beside the reference's run read one operation at a time
  (`Cert.ReferenceIdeal.RefRbf.result_eq`), both at `rbf` of arguments that agree.
-/
import proofs.«175517_j17626545783610_2_alg».proof.Defs
import proofs.«175517_j17626545783610_2_alg».proof.Proof.Gen.Kernel
import proofs.«175517_j17626545783610_2_alg».proof.Proof.Gen.Kernel.Skeleton
import proofs.«175517_j17626545783610_2_alg».proof.Proof.Gen.Kernel.Launch
import proofs.«175517_j17626545783610_2_alg».proof.Proof.Gen.Kernel.Points
import proofs.«175517_j17626545783610_2_alg».proof.Proof.Gen.Kernel.Frame
import proofs.«175517_j17626545783610_2_alg».proof.Proof.Gen.KernelIdeal
import proofs.«175517_j17626545783610_2_alg».proof.Proof.Gen.KernelIdeal.Skeleton
import proofs.«175517_j17626545783610_2_alg».proof.Proof.Gen.KernelIdeal.Launch
import proofs.«175517_j17626545783610_2_alg».proof.Proof.Gen.KernelIdeal.Points
import proofs.«175517_j17626545783610_2_alg».proof.Proof.Gen.KernelIdeal.Frame
import proofs.«175517_j17626545783610_2_alg».proof.Proof.Gen.ReferenceIdeal
import proofs.«175517_j17626545783610_2_alg».proof.Proof.Gen.Pre_finite_inputs
import proofs.«175517_j17626545783610_2_alg».proof.Proof.Gen.KernelIdeal.Value
import proofs.«175517_j17626545783610_2_alg».proof.Proof.Gen.ReferenceIdeal.Run
import proofs.«175517_j17626545783610_2_alg».proof.Proof.Gen.ReferenceIdeal.Read
import proofs.«175517_j17626545783610_2_alg».proof.Proof.Rbf
import proofs.«175517_j17626545783610_2_alg».proof.Proof.RefRbf
import proofs.«175517_j17626545783610_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the layer of its arguments, and the reference's at the
    layer of its own; the arguments agree, so the results are equal entry by entry. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefRbf.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
